-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩

abbrev nBuf : Space → Nat
  | .hbm => 11
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .bf16⟩
  | .hbm, ⟨7, _⟩ => ⟨S128x128, .f32⟩
  | .hbm, ⟨8, _⟩ => ⟨S1x128, .f32⟩
  | .hbm, ⟨9, _⟩ => ⟨S1x128, .f32⟩
  | .hbm, ⟨10, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .bf16⟩
  | .local _ .vmem, ⟨3, _⟩ => ⟨S400x128, .f32⟩
  | .local _ .vmem, ⟨4, _⟩ => ⟨S400x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S400x128, .f32⟩
  | .local _ .vmem, ⟨10, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  transposes_S128x128_S128x128_1_0 : S128x128.Transposes [1, 0] S128x128
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S400x128_S400x128_0_0 : ∀ a, (![0, 0] : Fin 2 → Nat) a + S400x128.size a ≤ S400x128.size a
  h_S400x128 : 0 < S400x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  reduces_S400x10000_S400 : S400x10000.Reduces [1] S400
  shapeCasts_S400_S400x1 : S400.ShapeCasts S400x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S400x1_S400x128 : S400x1.Broadcasts S400x128
  broadcasts_S1x128_S400x128 : S1x128.Broadcasts S400x128
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x128.size a ≤ S10000x128.size a
  hwx0_7 : ∀ i : grid0.Coords, EltTy.bits .f32 = 32 ∨ (Rect.block (s := S10000x128) S400x128.size (cc0_transform_7 i) (hinb0_7 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S_, .f32⟩
  | .hbm, ⟨25, _⟩ => ⟨S10000x128, .f32⟩
  | .hbm, ⟨26, _⟩ => ⟨S10000x128, .f32⟩
  | .hbm, ⟨27, _⟩ => ⟨S_, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibRealSum.lean ====
/-
  Sums of real numbers inside the extended reals.

  The coercion of a finite sum of reals is the sum of the coercions. Consequently, when every factor is a real
  number, a weighted double sum may be taken in either order:
      Σ_e (Σ_k x e k · W k) · r e  =  Σ_k (Σ_e x e k · r e) · W k .
  (Over the extended reals in general this fails: multiplication does not distribute over a sum that mixes +∞ and −∞.)
-/
import Mathlib

noncomputable section

open scoped BigOperators

namespace Cert.LibRealSum

/-- An extended real that is (the coercion of) a real number. -/
def IsReal (x : EReal) : Prop := ∃ a : ℝ, x = (a : EReal)

theorem isReal_coe (a : ℝ) : IsReal (a : EReal) := ⟨a, rfl⟩
theorem isReal_zero : IsReal 0 := ⟨0, rfl⟩
theorem isReal_one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert j s hj ih => rw [Finset.sum_insert hj, Finset.sum_insert hj, EReal.coe_add, ih]

theorem isReal_sum {ι : Type*} (s : Finset ι) (f : ι → EReal) (h : ∀ i ∈ s, IsReal (f i)) : IsReal (∑ i ∈ s, f i) := by
  classical
  induction s using Finset.induction_on with
  | empty => simpa using isReal_zero
  | insert j s hj ih =>
    rw [Finset.sum_insert hj]
    exact (h j (Finset.mem_insert_self j s)).add (ih fun i hi => h i (Finset.mem_insert_of_mem hi))

/-- THE LAW: with real factors, the weighted double sum in either order. -/
theorem sum_mul_sum_swap {ι κ : Type*} [Fintype κ] (s : Finset ι) (x : ι → κ → EReal) (r : ι → EReal) (W : κ → EReal)
    (hx : ∀ e k, IsReal (x e k)) (hr : ∀ e, IsReal (r e)) (hW : ∀ k, IsReal (W k)) :
    ∑ e ∈ s, (∑ k, x e k * W k) * r e = ∑ k, (∑ e ∈ s, x e k * r e) * W k := by
  classical
  choose x' hx' using hx
  choose r' hr' using hr
  choose W' hW' using hW
  simp only [hx', hr', hW', ← EReal.coe_mul, ← coe_finset_sum]
  refine congrArg _ ?_
  simp only [Finset.sum_mul]
  rw [Finset.sum_comm]
  exact Finset.sum_congr rfl fun k _ => Finset.sum_congr rfl fun e _ => by ring

end Cert.LibRealSum

end
-- ==== Proof.HighwayEntry.lean ====
/-
  One entry of a highway graph-convolution layer, in two arrangements, and the law that joins them.

  Fix an output entry (r, j). Write a n for the adjacency row r, X n e for the features, w e for row j of the weight
  matrix, β for entry j of its bias, κ e for column j of the gate matrix and γ for entry j of the gate bias. The layer's
  entry is
        g · max(s, 0) + (1 − g) · X r j ,      g = 1 / (1 + exp(−(Σ_e X r e · κ e + γ))) ,
  where the aggregated support s is, as the definition of the layer has it,
        s = Σ_n a n · (Σ_e X n e · w e + β)                               (aggregate the transformed features),
  and, with the sums taken the other way round,
        s = Σ_e (Σ_n a n · X n e) · w e + (Σ_n a n) · β                    (transform the aggregated features).
  The two are equal when every factor is a real number: this is distributivity and an exchange of two finite sums,
  which over the extended reals is only valid away from the infinities.
-/
import Mathlib
import Idealize.ShloMosaic.PureOps.Ideal
import proofs.«105483_g71073118815011_cont_9to1c4b_851_4_alg».proof.Proof.LibRealSum

noncomputable section

open scoped BigOperators

namespace Cert.Highway

open Idealize.ShloMosaic Cert.LibRealSum

variable {ι κ : Type*} [Fintype ι] [Fintype κ]

/-- The gated combination of a support value `s` and a carried value `v` under a gate `g`. -/
def combine (g s v : EReal) : EReal := g * s + (1 - g) * v

/-- The gate at an entry: the logistic function of the affine form of the entry's feature row. -/
def gate (xr : κ → EReal) (kj : κ → EReal) (gj : EReal) : EReal := Ideal.logistic ((∑ e, xr e * kj e) + gj)

/-- The support, aggregating the transformed features. -/
def supportAggOfTransformed (a : ι → EReal) (X : ι → κ → EReal) (w : κ → EReal) (β : EReal) : EReal :=
  ∑ n, a n * ((∑ e, X n e * w e) + β)

/-- The support, transforming the aggregated features. -/
def supportTransformOfAgg (a : ι → EReal) (X : ι → κ → EReal) (w : κ → EReal) (β : EReal) : EReal :=
  (∑ e, (∑ n, a n * X n e) * w e) + (∑ n, a n) * β

/-- The layer's entry with the support aggregated from transformed features. -/
def entryAggOfTransformed (a : ι → EReal) (X : ι → κ → EReal) (xr : κ → EReal) (v : EReal) (w : κ → EReal) (β : EReal)
    (kj : κ → EReal) (gj : EReal) : EReal :=
  combine (gate xr kj gj) (max (supportAggOfTransformed a X w β) 0) v

/-- The layer's entry with the aggregated features transformed. -/
def entryTransformOfAgg (a : ι → EReal) (X : ι → κ → EReal) (xr : κ → EReal) (v : EReal) (w : κ → EReal) (β : EReal)
    (kj : κ → EReal) (gj : EReal) : EReal :=
  combine (gate xr kj gj) (max (supportTransformOfAgg a X w β) 0) v

/-- Over the reals: Σ_n a n (Σ_e X n e w e + β) = Σ_e (Σ_n a n X n e) w e + (Σ_n a n) β. -/
theorem support_real (a : ι → ℝ) (X : ι → κ → ℝ) (w : κ → ℝ) (β : ℝ) :
    ∑ n, a n * ((∑ e, X n e * w e) + β) = (∑ e, (∑ n, a n * X n e) * w e) + (∑ n, a n) * β := by
  have h1 : ∀ n, a n * ((∑ e, X n e * w e) + β) = (∑ e, a n * X n e * w e) + a n * β := fun n => by
    rw [mul_add, Finset.mul_sum]
    congr 1
    exact Finset.sum_congr rfl fun e _ => by ring
  simp only [h1, Finset.sum_add_distrib, Finset.sum_mul]
  rw [Finset.sum_comm]

/-- The same over the extended reals, when every factor is a real number. -/
theorem support_eq (a : ι → EReal) (X : ι → κ → EReal) (w : κ → EReal) (β : EReal)
    (ha : ∀ n, IsReal (a n)) (hX : ∀ n e, IsReal (X n e)) (hw : ∀ e, IsReal (w e)) (hβ : IsReal β) :
    supportTransformOfAgg a X w β = supportAggOfTransformed a X w β := by
  classical
  choose a' ha' using ha
  choose X' hX' using hX
  choose w' hw' using hw
  obtain ⟨β', rfl⟩ := hβ
  unfold supportTransformOfAgg supportAggOfTransformed
  simp only [ha', hX', hw', ← EReal.coe_mul, ← coe_finset_sum, ← EReal.coe_add]
  exact congrArg _ (support_real a' X' w' β').symm

/-- Hence the two arrangements of the layer's entry agree on real data. -/
theorem entry_eq (a : ι → EReal) (X : ι → κ → EReal) (xr : κ → EReal) (v : EReal) (w : κ → EReal) (β : EReal)
    (kj : κ → EReal) (gj : EReal)
    (ha : ∀ n, IsReal (a n)) (hX : ∀ n e, IsReal (X n e)) (hw : ∀ e, IsReal (w e)) (hβ : IsReal β) :
    entryTransformOfAgg a X xr v w β kj gj = entryAggOfTransformed a X xr v w β kj gj := by
  unfold entryTransformOfAgg entryAggOfTransformed
  rw [support_eq a X w β ha hX hw hβ]

end Cert.Highway

end
-- ==== Proof.HighwayLayer.lean ====
/-
  The highway graph-convolution layer as whole arrays.

  For features x : [10000, 128], adjacency adj : [10000, 10000], weight W : [128, 128] (used transposed), bias b : [128],
  gate matrix kg : [128, 128] and gate bias bg : [128], the output entry (r, j) is the layer's entry built from row r of
  adj, all of x, row r of x, row j of W, b j, column j of kg and bg j — in either arrangement of the support. On real
  data the two whole arrays are equal.
-/
import Idealize.ShloMosaic.Lib.ValueIdx
import proofs.«105483_g71073118815011_cont_9to1c4b_851_4_alg».proof.Proof.HighwayEntry

noncomputable section

open scoped BigOperators

namespace Cert.Highway

open Idealize.ShloMosaic Idealize.ShloMosaic.ValueIdx Cert.LibRealSum

abbrev SX : Shape := ⟨2, ![10000, 128]⟩
abbrev SA : Shape := ⟨2, ![10000, 10000]⟩
abbrev SW : Shape := ⟨2, ![128, 128]⟩
abbrev SB : Shape := ⟨1, ![128]⟩

variable (x : SX.Idx → EReal) (adj : SA.Idx → EReal) (W : SW.Idx → EReal) (b : SB.Idx → EReal)
  (kg : SW.Idx → EReal) (bg : SB.Idx → EReal)

/-- Entry (r, j), aggregating the transformed features: Σ_n adj[r, n] · (Σ_e x[n, e] · W[j, e] + b[j]). -/
def aggOfTransformedAt (r : Fin 10000) (j : Fin 128) : EReal :=
  entryAggOfTransformed (fun n : Fin 10000 => adj (ix2 r n)) (fun (n : Fin 10000) (e : Fin 128) => x (ix2 n e))
    (fun e : Fin 128 => x (ix2 r e)) (x (ix2 r j)) (fun e : Fin 128 => W (ix2 j e)) (b (ix1 j))
    (fun e : Fin 128 => kg (ix2 e j)) (bg (ix1 j))

/-- Entry (r, j), transforming the aggregated features: Σ_e (Σ_n adj[r, n] · x[n, e]) · W[j, e] + (Σ_n adj[r, n]) · b[j]. -/
def transformOfAggAt (r : Fin 10000) (j : Fin 128) : EReal :=
  entryTransformOfAgg (fun n : Fin 10000 => adj (ix2 r n)) (fun (n : Fin 10000) (e : Fin 128) => x (ix2 n e))
    (fun e : Fin 128 => x (ix2 r e)) (x (ix2 r j)) (fun e : Fin 128 => W (ix2 j e)) (b (ix1 j))
    (fun e : Fin 128 => kg (ix2 e j)) (bg (ix1 j))

/-- The layer's output array, support aggregated from transformed features. -/
def layerAggOfTransformed : SX.Idx → EReal := fun i => aggOfTransformedAt x adj W b kg bg (i 0) (i 1)

/-- The layer's output array, aggregated features transformed. -/
def layerTransformOfAgg : SX.Idx → EReal := fun i => transformOfAggAt x adj W b kg bg (i 0) (i 1)

theorem layerAggOfTransformed_apply (r : Fin 10000) (j : Fin 128) :
    layerAggOfTransformed x adj W b kg bg (ix2 r j) = aggOfTransformedAt x adj W b kg bg r j := rfl

theorem layerTransformOfAgg_apply (r : Fin 10000) (j : Fin 128) :
    layerTransformOfAgg x adj W b kg bg (ix2 r j) = transformOfAggAt x adj W b kg bg r j := rfl

/-- On real features, adjacency, weights and bias the two arrays are one. -/
theorem layer_eq (hx : ∀ i, IsReal (x i)) (hadj : ∀ i, IsReal (adj i)) (hW : ∀ i, IsReal (W i)) (hb : ∀ i, IsReal (b i)) :
    layerTransformOfAgg x adj W b kg bg = layerAggOfTransformed x adj W b kg bg := by
  funext i
  exact entry_eq _ _ _ _ _ _ _ _ (fun n => hadj _) (fun n e => hx _) (fun e => hW _) (hb _)

end Cert.Highway

end
-- ==== Proof.ReferenceLayer.lean ====
/-
  The reference computes the layer with the support aggregated from transformed features.

  Read one operation at a time at an entry (r, j): the hidden features are x · Wᵀ + b, so hidden[n, j] =
  Σ_e x[n, e] · W[j, e] + b[j]; the support is adj · hidden clipped below at zero; the gate is 1 / (1 + exp(−z)) at
  z = Σ_e x[r, e] · kg[e, j] + bg[j], which is the logistic function of z; and the result is
  gate · support + (1 − gate) · x[r, j]. The only literals are the words of 0 and of 1.
-/
import Idealize.ShloMosaic.Lib.IdealHost
import proofs.«105483_g71073118815011_cont_9to1c4b_851_4_alg».proof.Proof.Gen.ReferenceIdeal.Read
import proofs.«105483_g71073118815011_cont_9to1c4b_851_4_alg».proof.Proof.HighwayLayer

noncomputable section

open scoped BigOperators

namespace Cert.Highway.Reference

open Idealize.ShloMosaic Idealize.ShloMosaic.ValueIdx Cert.ReferenceIdeal Cert.ReferenceIdeal.Read Cert.Highway

variable (r : Fin 10000) (j : Fin 128) (n : Fin 10000) (e : Fin 128)

/-! The composed index maps of the reference's operations at the entry (r, j). -/

theorem gate_lhs : lidx_main_v7 (ix2 r j) e = ix2 r e :=
  funext fun a => Fin.ext (by match a with | ⟨0, _⟩ => rfl | ⟨1, _⟩ => rfl)
theorem gate_rhs : ridx_main_v7 (ix2 r j) e = ix2 e j :=
  funext fun a => Fin.ext (by match a with | ⟨0, _⟩ => rfl | ⟨1, _⟩ => rfl)
theorem gate_bias : idx_main_v8 (idx_main_v9 (ix2 r j)) = ix1 j :=
  funext fun a => Fin.ext (by match a with | ⟨0, _⟩ => rfl)
theorem agg_lhs : lidx_main_v5 (ix2 r j) n = ix2 r n :=
  funext fun a => Fin.ext (by match a with | ⟨0, _⟩ => rfl | ⟨1, _⟩ => rfl)
theorem hidden_lhs : lidx_main_v1 (ridx_main_v5 (ix2 r j) n) e = ix2 n e :=
  funext fun a => Fin.ext (by match a with | ⟨0, _⟩ => rfl | ⟨1, _⟩ => rfl)
theorem hidden_rhs : idx_main_v0 (ridx_main_v1 (ridx_main_v5 (ix2 r j) n) e) = ix2 j e :=
  funext fun a => Fin.ext (by match a with | ⟨0, _⟩ => rfl | ⟨1, _⟩ => rfl)
theorem hidden_bias : idx_main_v2 (idx_main_v3 (ridx_main_v5 (ix2 r j) n)) = ix1 j :=
  funext fun a => Fin.ext (by match a with | ⟨0, _⟩ => rfl)

/-- The reference's result array is the layer's, support aggregated from transformed features. -/
theorem result_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v21 (F := Ideal) x0 x1 x2 x3 x4 x5 = layerAggOfTransformed x0 x1 x2 x3 x4 x5 := by
  funext i
  obtain ⟨r, j, rfl⟩ : ∃ (r : Fin 10000) (j : Fin 128), i = ix2 r j := ⟨i 0, i 1, eq_ix2 i⟩
  rw [layerAggOfTransformed_apply]
  simp only [val_main_v21_apply, val_main_v20_apply, val_main_v19_apply, val_main_v18_apply, val_main_v17_apply,
    val_main_cst_1_apply, val_main_v16_apply, val_main_v15_apply, val_main_cst_0_apply, val_main_v14_apply,
    val_main_v13_apply, val_main_cst_apply, val_main_v12_apply, val_main_v11_apply, val_main_v10_apply,
    val_main_v9_apply, val_main_v8_apply, val_main_v7_apply, val_main_v6_apply, val_main_call0_v0_apply,
    val_main_call0_cst_apply, val_main_v5_apply, val_main_v4_apply, val_main_v3_apply, val_main_v2_apply,
    val_main_v1_apply, val_main_v0_apply,
    gate_lhs, gate_rhs, gate_bias, agg_lhs, hidden_lhs, hidden_rhs, hidden_bias,
    Ideal.ofBits_def, Ideal.addf_def, Ideal.subf_def, Ideal.mulf_def, Ideal.maximumf_def, Ideal.hostDivf_def,
    Ideal.hostNegf_def, Ideal.negf_def, Ideal.hostUnary_exp_def, Ideal.ofBits_one_f32, Ideal.ofBits_zero_f32]
  rfl

end Cert.Highway.Reference

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibColBroadcast.lean ====
/-
  One column broadcast over many: a `[a, 1]` array broadcast to `[a, b]` reads, at `(p, c)`, the operand's row `p`.
-/
import Idealize.ShloMosaic.Lib.ValueIdx
import Idealize.ShloMosaic.Lib.Pipeline.Value

noncomputable section

namespace Cert.LibColBroadcast

open Idealize.ShloMosaic Idealize.ShloMosaic.ValueIdx

variable {α : Type}

/-- A `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast

end
-- ==== Proof.LibRowReduce.lean ====
/-
  A row's maximum and a row's sum, as a kernel and as the host compute them.

  For an array `v : [R, C]` reduced along its second axis, over the extended reals: the kernel's lane maximum from the
  word of `-∞` and the host's reduce with a maximum body from the same word are both the fold of `max` over the row's
  `C` entries; the kernel's lane sum and the host's sum from zero are both the plain sum of the row's entries. Also the
  two small facts that go with them: `max (-∞) y = y`, and a vector `[R]` recast as a column `[R, 1]` reads its row.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibRowReduce

open Idealize.ShloMosaic Idealize.ShloMosaic.ValueIdx

variable {R C : Nat}

/-- The maximum of `C` extended reals, folded from the f32 word of `-∞`. -/
def rowMax (f : Fin C → EReal) : EReal :=
  (Finset.univ : Finset (Fin C)).fold max (Ideal.ofBits .f32 0xFF800000#32) f

/-- The f32 word `0xFF800000` is `-∞`, the identity of `max`. -/
theorem max_negInf (y : EReal) : max (Ideal.ofBits .f32 0xFF800000#32) y = y := by
  simp [Ideal.ofBits, Ideal.ieee]

/-- The reduced index `r` with lane `k` put back is `(r, k)`. -/
theorem lift_row (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- The kernel's lane maximum of row `r`. -/
theorem multiReduction_max_row (src : FVec Ideal ⟨2, ![R, C]⟩ .f32)
    (h : (⟨2, ![R, C]⟩ : Shape).Reduces [1] (⟨1, ![R]⟩ : Shape)) (hφ : FKind.Formats .f32)
    (hacc : (0xFF800000#32 : BitVec 32) = FKind.maximumf.neutral .f32 hφ) (r : Fin R) :
    multiReduction .maximumf [1] (⟨1, ![R]⟩ : Shape) src 0xFF800000#32 h hφ hacc (ix1 r) = rowMax fun k => src (ix2 r k) := by
  rw [Ideal.multiReduction_maximumf_single src _ h hφ hacc (ix1 r)]
  have hf : (src ∘ h.lift (ix1 r)) = fun k : Fin C => src (ix2 r k) :=
    funext fun k => congrArg src (lift_row h r k)
  unfold rowMax
  exact congrArg (fun f => Finset.fold max (Ideal.ofBits .f32 0xFF800000#32) f (Finset.univ : Finset (Fin C))) hf

/-- The host's reduce with a maximum body along axis 1, from the word of `-∞`, at row `r`. -/
theorem hostReduce_max_row (x : FVec Ideal ⟨2, ![R, C]⟩ .f32) (init : (⟨0, ![]⟩ : Shape).Idx → Ideal .f32)
    (hinit : ∀ i, init i = Ideal.ofBits .f32 0xFF800000#32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x init h' hu (ix1 r) = rowMax fun k => x (ix2 r k) := by
  rw [Host.reduce_eq_fold_single FloatOps.maximumf x _ h' h hu, hinit]
  have hf : (x ∘ h.lift (ix1 r)) = fun k : Fin C => x (ix2 r k) :=
    funext fun k => congrArg x (lift_row h r k)
  unfold rowMax
  exact congrArg (fun f => Finset.fold max (Ideal.ofBits .f32 0xFF800000#32) f (Finset.univ : Finset (Fin C))) hf

/-- The kernel's lane sum of row `r`. -/
theorem multiReduction_add_row (src : FVec Ideal ⟨2, ![R, C]⟩ .f32)
    (h : (⟨2, ![R, C]⟩ : Shape).Reduces [1] (⟨1, ![R]⟩ : Shape)) (hφ : FKind.Formats .f32)
    (hacc : (0x00000000#32 : BitVec 32) = FKind.add.neutral .f32 hφ) (r : Fin R) :
    multiReduction .add [1] (⟨1, ![R]⟩ : Shape) src 0x00000000#32 h hφ hacc (ix1 r) = ∑ k : Fin C, src (ix2 r k) := by
  rw [Ideal.multiReduction_add_single src _ h hφ hacc (ix1 r)]
  refine Finset.sum_congr rfl fun k _ => ?_
  exact congrArg src (lift_row h r k)

/-- The host's sum along axis 1 from zero, at row `r`. -/
theorem hostReduceAdd_row (x : FVec Ideal ⟨2, ![R, C]⟩ .f32) (init : (⟨0, ![]⟩ : Shape).Idx → Ideal .f32)
    (hinit : ∀ i, init i = 0)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd (F := Ideal) x init h' hu (ix1 r) = ∑ k : Fin C, x (ix2 r k) := by
  show Ideal.hostReduceAdd h' x (init (Shape.Idx.first hu)) (ix1 r) = _
  rw [Ideal.hostReduceAdd_single h' h, hinit, zero_add]
  refine Finset.sum_congr rfl fun k _ => ?_
  exact congrArg x (lift_row h r k)

/-- A vector `[R]` recast as a column `[R, 1]` reads its row. -/
theorem shapeCast_col_apply {α : Type} (v : (⟨1, ![R]⟩ : Shape).Idx → α) (h : (⟨1, ![R]⟩ : Shape).ShapeCasts ⟨2, ![R, 1]⟩)
    (r : Fin R) : shapeCast ⟨2, ![R, 1]⟩ v h (ix2 r (0 : Fin 1)) = v (ix1 r) := by
  refine shapeCast_apply v h _ _ ?_
  rw [Shape.rowMajor_val_two, Shape.rowMajor_val_one]
  show r.val = r.val * 1 + 0
  omega

end Cert.LibRowReduce

end
-- ==== Proof.KernelEntry.lean ====
/-
  What the kernel body stores at entry (p, q) of its output block.

  From the blocks it loads — a : [400, 10000] (rows of the adjacency), X : [10000, 128] (all features), xb : [400, 128]
  (the same rows of the features), wt : [128, 128] (the transposed weights), β : [1, 128], kg : [128, 128], γ : [1, 128] —
  the body forms (a · X) · wt + rowsum(a) · β, clips it below at zero, forms the gate as the logistic function of
  xb · kg + γ, and stores gate · support + (1 − gate) · xb. Entry (p, q) of that is the layer's entry with the
  aggregated features transformed: each matrix product is a plain sum over the contracted axis, the row sum a plain
  sum over the row, and the two broadcasts read row p of a column and lane q of a row.
-/
import Idealize.ShloMosaic.Lib.IdealHost
import Idealize.ShloMosaic.Lib.Pipeline.Value
import Idealize.ShloMosaic.Lib.ValueIdx
import proofs.«105483_g71073118815011_cont_9to1c4b_851_4_alg».proof.Proof.Gen.KernelIdeal.Skeleton
import proofs.«105483_g71073118815011_cont_9to1c4b_851_4_alg».proof.Proof.LibDotRows
import proofs.«105483_g71073118815011_cont_9to1c4b_851_4_alg».proof.Proof.LibColBroadcast
import proofs.«105483_g71073118815011_cont_9to1c4b_851_4_alg».proof.Proof.LibRowReduce
import proofs.«105483_g71073118815011_cont_9to1c4b_851_4_alg».proof.Proof.HighwayEntry

noncomputable section

open scoped BigOperators

namespace Cert.Highway.Kernel

open Idealize.ShloMosaic Idealize.ShloMosaic.ValueIdx Cert.KernelIdeal Cert.KernelIdeal.Gen Cert.Highway

theorem plain_agg : dot_S400x10000_S10000x128_S400x128_1_0_0_1_n_n = DotDims.plain 400 10000 128 := rfl
theorem plain_lin : dot_S400x128_S128x128_S400x128_1_0_0_1_n_n = DotDims.plain 400 128 128 := rfl

/-- A scalar literal is its word's value. -/
theorem scalar_ofBits (b : BitVec (FTy.bits .f32)) : Scalar.ofBits (F := Ideal) .f32 b = Ideal.ofBits .f32 b := rfl

/-- The logistic function lane by lane. -/
theorem logistic_apply {s : Shape} {φ : FTy} (a : FVec Ideal s φ) (i : s.Idx) : logistic a i = Ideal.logistic (a i) := rfl

/-- The aggregation product at (p, e): Σ_n a[p, n] · X[n, e] (the change of format of a is the identity). -/
theorem agg_apply (a : FVec Ideal S400x10000 .f32) (X : FVec Ideal S10000x128 .bf16) (p : Fin 400) (e : Fin 128) :
    matmul dot_S400x10000_S10000x128_S400x128_1_0_0_1_n_n none (truncf .bf16 a bitsLt_bf16_f32 : FVec Ideal S400x10000 .bf16)
      X (constant S400x128 .f32 0x00000000#32) (ix2 p e)
      = ∑ n : Fin 10000, a (ix2 p n) * X (ix2 n e) := by
  rw [plain_agg]
  exact Cert.Lib.DotRows.matmul_plain_apply _ _ p e

/-- A product of a [400, 128] block with a [128, 128] matrix at (p, q): Σ_e u[p, e] · w[e, q]. -/
theorem lin_apply (u : FVec Ideal S400x128 .f32) (w : FVec Ideal S128x128 .f32) (p : Fin 400) (q : Fin 128) :
    matmul dot_S400x128_S128x128_S400x128_1_0_0_1_n_n none u w (constant S400x128 .f32 0x00000000#32) (ix2 p q)
      = ∑ e : Fin 128, u (ix2 p e) * w (ix2 e q) := by
  rw [plain_lin]
  exact Cert.Lib.DotRows.matmul_plain_apply _ _ p q

/-- The row sums, recast as a column and broadcast along the lanes, at (p, q): Σ_n a[p, n]. -/
theorem rowsum_apply (a : FVec Ideal S400x10000 .f32) (hφ : FKind.Formats .f32)
    (hacc : (0x00000000#32 : BitVec 32) = 0x00000000#32) (p : Fin 400) (q : Fin 128) :
    broadcastTo S400x128 (shapeCast S400x1 (multiReduction .add [1] S400 a 0x00000000#32 reduces_S400x10000_S400 hφ hacc : FVec Ideal S400 .f32)
      shapeCasts_S400_S400x1) broadcasts_S400x1_S400x128 (ix2 p q) = ∑ n : Fin 10000, a (ix2 p n) :=
  (Cert.LibColBroadcast.broadcastTo_a1_ab_apply _ broadcasts_S400x1_S400x128 p q).trans
    ((Cert.LibRowReduce.shapeCast_col_apply _ shapeCasts_S400_S400x1 p).trans
      (Cert.LibRowReduce.multiReduction_add_row a reduces_S400x10000_S400 hφ hacc p))

/-- A [1, 128] row broadcast along the rows, at (p, q): its lane q. -/
theorem rowBroadcast_apply (v : FVec Ideal S1x128 .f32) (p : Fin 400) (q : Fin 128) :
    broadcastTo S400x128 v broadcasts_S1x128_S400x128 (ix2 p q) = v (ix2 (0 : Fin 1) q) := by
  refine broadcastTo_apply _ broadcasts_S1x128_S400x128 (ix2 p q) (ix2 (0 : Fin 1) q) fun ax => ?_
  match ax with
  | ⟨0, _⟩ => rfl
  | ⟨1, _⟩ => rfl

/-- Entry (p, q) of the stored block is the layer's entry, aggregated features transformed. -/
theorem stored_apply (a : Vec Ideal S400x10000 .f32) (xb : Vec Ideal S400x128 .f32) (X : Vec Ideal S10000x128 .bf16)
    (wt : Vec Ideal S128x128 .f32) (β : Vec Ideal S1x128 .f32) (kg : Vec Ideal S128x128 .f32) (γ : Vec Ideal S1x128 .f32)
    (p : Fin 400) (q : Fin 128) :
    k0_pay1 (F := Ideal) a xb X wt β kg γ (ix2 p q)
      = entryTransformOfAgg (fun n : Fin 10000 => a (ix2 p n)) (fun (n : Fin 10000) (e : Fin 128) => X (ix2 n e))
          (fun e : Fin 128 => xb (ix2 p e)) (xb (ix2 p q)) (fun e : Fin 128 => wt (ix2 e q)) (β (ix2 (0 : Fin 1) q))
          (fun e : Fin 128 => kg (ix2 e q)) (γ (ix2 (0 : Fin 1) q)) := by
  unfold k0_pay1
  simp only [shapeCast_self, addf_apply, mulf_apply, subf_apply, maximumf_apply, broadcast_apply, logistic_apply,
    lin_apply, agg_apply, rowBroadcast_apply, scalar_ofBits, Ideal.ofBits_one_f32, Ideal.ofBits_zero_f32]
  rw [rowsum_apply]
  rfl

end Cert.Highway.Kernel

end
-- ==== Proof.WindowBlocks.lean ====
/-
  What the kernel's windows hold at grid point t, in terms of the argument arrays.

  The grid has 25 points; point t works on rows 400·t … 400·t + 399. Before the region the program forms, from the
  arguments, the features in the narrower float format (the same extended reals), the transposed weight matrix
  (entry (e, q) is W[q, e]) and the two biases recast from [128] to [1, 128] (entry (0, q) is entry q). The windows
  then read: rows 400·t + p of the adjacency and of the features (windows 0 and 2), and the whole of the narrow
  features, the transposed weights, the recast biases and the gate matrix (windows 1, 3, 4, 5, 6), the same block at
  every point. The output window writes rows 400·t + p.
-/
import Idealize.ShloMosaic.PureOps.Ideal
import Idealize.ShloMosaic.Lib.StableHlo.Run
import Idealize.ShloMosaic.Lib.ValueIdx
import Idealize.ShloMosaic.Lib.ValueLayout
import proofs.«105483_g71073118815011_cont_9to1c4b_851_4_alg».proof.Proof.Gen.KernelIdeal.Frame

noncomputable section

namespace Cert.Highway.Kernel

open Idealize.ShloMosaic Idealize.ShloMosaic.TcCoe Idealize.ShloMosaic.ValueIdx Idealize.SL.Sem
open Cert.KernelIdeal Cert.KernelIdeal.Gen Idealize.ShloMosaic.StableHlo

variable (m : (ℓ : Loc nD τ sig) → Buf (Elt Ideal) ℓ)

/-- The printed index maps over the grid: windows 0, 2 and 7 move with the point along the rows, the others stay. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 25 := lt_of_lt_of_eq t.isLt N_0

/-! ## The arrays the host operations before the region leave -/

/-- The narrow-format features are the features. -/
theorem narrow_features (c : Dev nD) :
    (V m c main_call0_v0 : S10000x128.Idx → Ideal .bf16)
      = (truncf .bf16 (m ((c : Thread nD τ).loc main_arg0) : FVec Ideal S10000x128 .f32) bitsLt_bf16_f32 : FVec Ideal S10000x128 .bf16) := by
  dsimp only [Gen.V, Gen.hostOps0]
  after_results
  rfl

/-- The transposed weights. -/
theorem transposed_weights (c : Dev nD) :
    (V m c main_call0_v1 : S128x128.Idx → Ideal .f32)
      = transpose S128x128 [1, 0] (m ((c : Thread nD τ).loc main_arg2) : FVec Ideal S128x128 .f32) transposes_S128x128_S128x128_1_0 := by
  dsimp only [Gen.V, Gen.hostOps0]
  after_results
  rfl

/-- The bias as a row. -/
theorem bias_row (c : Dev nD) :
    (V m c main_call0_v2 : S1x128.Idx → Ideal .f32)
      = shapeCast S1x128 (m ((c : Thread nD τ).loc main_arg3) : FVec Ideal S128 .f32) shapeCasts_S128_S1x128 := by
  dsimp only [Gen.V, Gen.hostOps0]
  after_results
  rfl

/-- The gate bias as a row. -/
theorem gate_bias_row (c : Dev nD) :
    (V m c main_call0_v3 : S1x128.Idx → Ideal .f32)
      = shapeCast S1x128 (m ((c : Thread nD τ).loc main_arg5) : FVec Ideal S128 .f32) shapeCasts_S128_S1x128 := by
  dsimp only [Gen.V, Gen.hostOps0]
  after_results
  rfl

/-! ## The blocks at a point -/

/-- Window 0 at point t, entry (p, n): the adjacency at (400·t + p, n). -/
theorem adjacency_read (c : Dev nD) (t : Fin cfg0.N) (p : Fin 400) (n : Fin 10000) (hp : t.val * 400 + p.val < 10000) :
    iblk m c 0 t (ix2 p n) = (m ((c : Thread nD τ).loc main_arg1) : S10000x10000.Idx → Ideal .f32) (ix2 ⟨t.val * 400 + p.val, hp⟩ n) := by
  show V m c main_arg1 (((cfg0.win 0).blk t).view.emb (ix2 p n)) = _
  rw [V_main_arg1]
  obtain ⟨e00, e01, -⟩ := index_facts t
  refine congrArg (m ((c : Thread nD τ).loc main_arg1) : S10000x10000.Idx → Ideal .f32) (funext fun a => Fin.ext ?_)
  match a with
  | ⟨0, _⟩ => show win0_0.index t (0 : Fin 2) * 400 + 1 * p.val = t.val * 400 + p.val; omega
  | ⟨1, _⟩ => show win0_0.index t (1 : Fin 2) * 10000 + 1 * n.val = n.val; omega

/-- Window 1 at any point, entry (n, e): the features at (n, e). -/
theorem features_read (c : Dev nD) (t : Fin cfg0.N) (n : Fin 10000) (e : Fin 128) :
    (iblk m c 1 t (ix2 n e) : EReal) = (m ((c : Thread nD τ).loc main_arg0) : S10000x128.Idx → Ideal .f32) (ix2 n e) := by
  show (V m c main_call0_v0 : S10000x128.Idx → Ideal .bf16) (((cfg0.win 1).blk t).view.emb (ix2 n e)) = _
  rw [narrow_features]
  obtain ⟨-, -, e10, e11, -⟩ := index_facts t
  show (m ((c : Thread nD τ).loc main_arg0) : S10000x128.Idx → Ideal .f32) (((cfg0.win 1).blk t).view.emb (ix2 n e)) = _
  refine congrArg (m ((c : Thread nD τ).loc main_arg0) : S10000x128.Idx → Ideal .f32) (funext fun a => Fin.ext ?_)
  match a with
  | ⟨0, _⟩ => show win0_1.index t (0 : Fin 2) * 10000 + 1 * n.val = n.val; omega
  | ⟨1, _⟩ => show win0_1.index t (1 : Fin 2) * 128 + 1 * e.val = e.val; omega

/-- Window 2 at point t, entry (p, e): the features at (400·t + p, e). -/
theorem feature_rows_read (c : Dev nD) (t : Fin cfg0.N) (p : Fin 400) (e : Fin 128) (hp : t.val * 400 + p.val < 10000) :
    iblk m c 2 t (ix2 p e) = (m ((c : Thread nD τ).loc main_arg0) : S10000x128.Idx → Ideal .f32) (ix2 ⟨t.val * 400 + p.val, hp⟩ e) := by
  show V m c main_arg0 (((cfg0.win 2).blk t).view.emb (ix2 p e)) = _
  rw [V_main_arg0]
  obtain ⟨-, -, -, -, e20, e21, -⟩ := index_facts t
  refine congrArg (m ((c : Thread nD τ).loc main_arg0) : S10000x128.Idx → Ideal .f32) (funext fun a => Fin.ext ?_)
  match a with
  | ⟨0, _⟩ => show win0_2.index t (0 : Fin 2) * 400 + 1 * p.val = t.val * 400 + p.val; omega
  | ⟨1, _⟩ => show win0_2.index t (1 : Fin 2) * 128 + 1 * e.val = e.val; omega

/-- Window 3 at any point, entry (e, q): the weight matrix at (q, e). -/
theorem weights_read (c : Dev nD) (t : Fin cfg0.N) (e q : Fin 128) :
    iblk m c 3 t (ix2 e q) = (m ((c : Thread nD τ).loc main_arg2) : S128x128.Idx → Ideal .f32) (ix2 q e) := by
  show (V m c main_call0_v1 : S128x128.Idx → Ideal .f32) (((cfg0.win 3).blk t).view.emb (ix2 e q)) = _
  rw [transposed_weights]
  obtain ⟨-, -, -, -, -, -, e30, e31, -⟩ := index_facts t
  have hemb : ((cfg0.win 3).blk t).view.emb (ix2 e q) = (ix2 e q : S128x128.Idx) := funext fun a => Fin.ext (by
    match a with
    | ⟨0, _⟩ => show win0_3.index t (0 : Fin 2) * 128 + 1 * e.val = e.val; omega
    | ⟨1, _⟩ => show win0_3.index t (1 : Fin 2) * 128 + 1 * q.val = q.val; omega)
  rw [hemb]
  exact transpose_ix2_apply _ transposes_S128x128_S128x128_1_0 e q

/-- Window 4 at any point, entry (0, q): the bias at q. -/
theorem bias_read (c : Dev nD) (t : Fin cfg0.N) (q : Fin 128) :
    iblk m c 4 t (ix2 (0 : Fin 1) q) = (m ((c : Thread nD τ).loc main_arg3) : S128.Idx → Ideal .f32) (ix1 q) := by
  show (V m c main_call0_v2 : S1x128.Idx → Ideal .f32) (((cfg0.win 4).blk t).view.emb (ix2 (0 : Fin 1) q)) = _
  rw [bias_row]
  obtain ⟨-, -, -, -, -, -, -, -, e40, e41, -⟩ := index_facts t
  have hemb : ((cfg0.win 4).blk t).view.emb (ix2 (0 : Fin 1) q) = (ix2 (0 : Fin 1) q : S1x128.Idx) := funext fun a => Fin.ext (by
    match a with
    | ⟨0, _⟩ => show win0_4.index t (0 : Fin 2) * 1 + 1 * 0 = 0; omega
    | ⟨1, _⟩ => show win0_4.index t (1 : Fin 2) * 128 + 1 * q.val = q.val; omega)
  rw [hemb]
  exact shapeCast_a_1a_apply _ shapeCasts_S128_S1x128 (0 : Fin 1) q

/-- Window 5 at any point, entry (e, q): the gate matrix at (e, q). -/
theorem gate_weights_read (c : Dev nD) (t : Fin cfg0.N) (e q : Fin 128) :
    iblk m c 5 t (ix2 e q) = (m ((c : Thread nD τ).loc main_arg4) : S128x128.Idx → Ideal .f32) (ix2 e q) := by
  show V m c main_arg4 (((cfg0.win 5).blk t).view.emb (ix2 e q)) = _
  rw [V_main_arg4]
  obtain ⟨-, -, -, -, -, -, -, -, -, -, e50, e51, -⟩ := index_facts t
  refine congrArg (m ((c : Thread nD τ).loc main_arg4) : S128x128.Idx → Ideal .f32) (funext fun a => Fin.ext ?_)
  match a with
  | ⟨0, _⟩ => show win0_5.index t (0 : Fin 2) * 128 + 1 * e.val = e.val; omega
  | ⟨1, _⟩ => show win0_5.index t (1 : Fin 2) * 128 + 1 * q.val = q.val; omega

/-- Window 6 at any point, entry (0, q): the gate bias at q. -/
theorem gate_bias_read (c : Dev nD) (t : Fin cfg0.N) (q : Fin 128) :
    iblk m c 6 t (ix2 (0 : Fin 1) q) = (m ((c : Thread nD τ).loc main_arg5) : S128.Idx → Ideal .f32) (ix1 q) := by
  show (V m c main_call0_v3 : S1x128.Idx → Ideal .f32) (((cfg0.win 6).blk t).view.emb (ix2 (0 : Fin 1) q)) = _
  rw [gate_bias_row]
  obtain ⟨-, -, -, -, -, -, -, -, -, -, -, -, e60, e61, -⟩ := index_facts t
  have hemb : ((cfg0.win 6).blk t).view.emb (ix2 (0 : Fin 1) q) = (ix2 (0 : Fin 1) q : S1x128.Idx) := funext fun a => Fin.ext (by
    match a with
    | ⟨0, _⟩ => show win0_6.index t (0 : Fin 2) * 1 + 1 * 0 = 0; omega
    | ⟨1, _⟩ => show win0_6.index t (1 : Fin 2) * 128 + 1 * q.val = q.val; omega)
  rw [hemb]
  exact shapeCast_a_1a_apply _ shapeCasts_S128_S1x128 (0 : Fin 1) q

/-- The output window at point t: entry (p, q) of its block is entry (400·t + p, q) of the array. -/
theorem output_emb (t : Fin cfg0.N) (p : Fin 400) (q : Fin 128) (hp : t.val * 400 + p.val < 10000) :
    ((cfg0.win 7).blk t).view.emb (ix2 p q) = (ix2 ⟨t.val * 400 + p.val, hp⟩ q : S10000x128.Idx) := by
  obtain ⟨-, -, -, -, -, -, -, -, -, -, -, -, -, -, e70, e71⟩ := index_facts t
  refine funext fun a => Fin.ext ?_
  match a with
  | ⟨0, _⟩ => show win0_7.index t (0 : Fin 2) * 400 + 1 * p.val = t.val * 400 + p.val; omega
  | ⟨1, _⟩ => show win0_7.index t (1 : Fin 2) * 128 + 1 * q.val = q.val; omega

end Cert.Highway.Kernel

end
-- ==== Proof.KernelLayer.lean ====
/-
  The kernel's output array is the layer, aggregated features transformed.

  At grid point t the body stores, at entry (p, q) of its block, the layer's entry built from the blocks the windows
  hold there; those blocks are rows 400·t + p of the adjacency and of the features and the whole of the other
  operands, so the stored entry is entry (400·t + p, q) of the layer's output array. The 25 points' blocks are rows
  400·t … 400·t + 399 and all 128 lanes, so together they cover the array: row r is in the block of point r / 400.
  Hence after the run the output array is the layer's output, whatever the inputs.
-/
import Idealize.ShloMosaic.Lib.Pipeline.Value
import proofs.«105483_g71073118815011_cont_9to1c4b_851_4_alg».proof.Proof.Gen.KernelIdeal.Value
import proofs.«105483_g71073118815011_cont_9to1c4b_851_4_alg».proof.Proof.KernelEntry
import proofs.«105483_g71073118815011_cont_9to1c4b_851_4_alg».proof.Proof.WindowBlocks
import proofs.«105483_g71073118815011_cont_9to1c4b_851_4_alg».proof.Proof.HighwayLayer

noncomputable section

namespace Cert.Highway

/-- The layer's entry depends on its eight pieces of data only through their values. -/
theorem entryTransformOfAgg_congr {ι κ : Type*} [Fintype ι] [Fintype κ]
    {a a' : ι → EReal} {X X' : ι → κ → EReal} {xr xr' : κ → EReal} {v v' : EReal} {w w' : κ → EReal} {β β' : EReal}
    {kj kj' : κ → EReal} {gj gj' : EReal}
    (ha : ∀ n, a n = a' n) (hX : ∀ n e, X n e = X' n e) (hxr : ∀ e, xr e = xr' e) (hv : v = v') (hw : ∀ e, w e = w' e)
    (hβ : β = β') (hkj : ∀ e, kj e = kj' e) (hgj : gj = gj') :
    entryTransformOfAgg a X xr v w β kj gj = entryTransformOfAgg a' X' xr' v' w' β' kj' gj' := by
  obtain rfl : a = a' := funext ha
  obtain rfl : X = X' := funext fun n => funext (hX n)
  obtain rfl : xr = xr' := funext hxr
  obtain rfl : w = w' := funext hw
  obtain rfl : kj = kj' := funext hkj
  subst hv hβ hgj
  rfl

namespace Kernel

open Idealize.ShloMosaic Idealize.ShloMosaic.TcCoe Idealize.ShloMosaic.ValueIdx Idealize.SL.Sem
open Cert.KernelIdeal Cert.KernelIdeal.Gen Cert.Highway
open Idealize.ShloMosaic.Pipeline (Dat)

variable (m : (ℓ : Loc nD τ sig) → Buf (Elt Ideal) ℓ) (ρ : Dev nD → PrngReg)

/-- The layer's output, aggregated features transformed, of the arguments device c is launched with. -/
def result (c : Dev nD) : S10000x128.Idx → EReal :=
  layerTransformOfAgg (m ((c : Thread nD τ).loc main_arg0) : S10000x128.Idx → Ideal .f32)
    (m ((c : Thread nD τ).loc main_arg1) : S10000x10000.Idx → Ideal .f32)
    (m ((c : Thread nD τ).loc main_arg2) : S128x128.Idx → Ideal .f32)
    (m ((c : Thread nD τ).loc main_arg3) : S128.Idx → Ideal .f32)
    (m ((c : Thread nD τ).loc main_arg4) : S128x128.Idx → Ideal .f32)
    (m ((c : Thread nD τ).loc main_arg5) : S128.Idx → Ideal .f32)

theorem origin : (![0, 0] : Fin 2 → Nat) = fun _ => 0 := funext fun a => by fin_cases a <;> rfl

/-- What point t writes back is block t of the layer's output. -/
theorem flushed_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero origin]
  simp only [View.ld_unit_zero (S := S400x10000) origin, View.ld_unit_zero (S := S400x128) origin,
    View.ld_unit_zero (S := S10000x128) origin, View.ld_unit_zero (S := S128x128) origin,
    View.ld_unit_zero (S := S1x128) origin]
  have ht := point_lt t
  show (fun y : S400x128.Idx => k0_pay1 (F := Ideal) (iblk m c 0 t) (iblk m c 2 t) (iblk m c 1 t) (iblk m c 3 t)
      (iblk m c 4 t) (iblk m c 5 t) (iblk m c 6 t) y)
    = fun y : S400x128.Idx => result m c (((cfg0.win 7).blk t).view.emb y)
  funext y
  obtain ⟨p, q, rfl⟩ : ∃ (p : Fin 400) (q : Fin 128), y = ix2 p q := ⟨y 0, y 1, eq_ix2 y⟩
  have hp : t.val * 400 + p.val < 10000 := by have := p.isLt; omega
  refine (stored_apply (iblk m c 0 t) (iblk m c 2 t) (iblk m c 1 t) (iblk m c 3 t) (iblk m c 4 t) (iblk m c 5 t)
    (iblk m c 6 t) p q).trans ?_
  rw [output_emb t p q hp]
  unfold result
  rw [layerTransformOfAgg_apply]
  exact entryTransformOfAgg_congr (fun n => adjacency_read m c t p n hp) (fun n e => features_read m c t n e)
    (fun e => feature_rows_read m c t p e hp) (feature_rows_read m c t p q hp) (fun e => weights_read m c t e q)
    (bias_read m c t q) (fun e => gate_weights_read m c t e q) (gate_bias_read m c t q)

/-- An index is in point t's block iff each coordinate is in the block's range on its axis. -/
theorem mem_block (t : Fin cfg0.N) (i : S10000x128.Idx) :
    i ∈ ((cfg0.win 7).blk t).view.set ↔ ∀ a : Fin 2, win0_7.index t a * S400x128.size a ≤ (i a).val
      ∧ (i a).val < win0_7.index t a * S400x128.size a + S400x128.size a := by
  show i ∈ ((View.whole main_v0).slice (win0_7.rect t)).set ↔ _
  rw [View.set_slice_whole, Rect.mem_set_unit]
  exact Iff.rfl

/-- Every index of the array is in the block of the point its row falls to. -/
theorem covered (i : S10000x128.Idx) :
    ∃ t : Fin cfg0.N, (cfg0.win 7).flush t = true ∧ i ∈ ((cfg0.win 7).blk t).view.set := by
  have hi0 : (i 0).val < 10000 := (i 0).isLt
  have hi1 : (i 1).val < 128 := (i 1).isLt
  have hN : cfg0.N = 25 := N_0
  have hlt : (i 0).val / 400 < cfg0.N := by rw [hN]; omega
  refine ⟨⟨(i 0).val / 400, hlt⟩, flush0_7 _, ?_⟩
  rw [mem_block]
  obtain ⟨-, -, -, -, -, -, -, -, -, -, -, -, -, -, e70, e71⟩ := index_facts ⟨(i 0).val / 400, hlt⟩
  have e70' : win0_7.index ⟨(i 0).val / 400, hlt⟩ (0 : Fin 2) = (i 0).val / 400 := e70
  intro a
  match a with
  | ⟨0, _⟩ =>
    show win0_7.index ⟨(i 0).val / 400, hlt⟩ (0 : Fin 2) * 400 ≤ (i 0).val
      ∧ (i 0).val < win0_7.index ⟨(i 0).val / 400, hlt⟩ (0 : Fin 2) * 400 + 400
    omega
  | ⟨1, _⟩ =>
    show win0_7.index ⟨(i 0).val / 400, hlt⟩ (1 : Fin 2) * 128 ≤ (i 1).val
      ∧ (i 1).val < win0_7.index ⟨(i 0).val / 400, hlt⟩ (1 : Fin 2) * 128 + 128
    omega

/-- After the run the output array is the layer's output. -/
theorem final (c : Dev nD) : (dats m 0 c).arrAt 7 cfg0.N = result m c :=
  (dats m 0 c).arrAt_eq_of_cover 7 (result m c) (fun t _ => flushed_eq m c t) (fun i => covered i)

/-- The kernel's run: every weakly fair execution terminates with the output array at the layer's output and the
    arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Kernel

end Cert.Highway

end
-- ==== Proof.LibFiniteAll.lean ====
/-
  An array every entry of which passes the test |x| < +∞ consists of real numbers.

  On the extended reals the absolute value is max x (−x), the pattern 0x7F800000 of the 32-bit format denotes
  +∞, and the comparison "less than" is the order's. An extended real x with max x (−x) < +∞ is neither +∞ nor
  −∞ (at either infinity the maximum is +∞), so it is a real number. A conjunction over a whole array of such
  tests, computed as a reduction by "and" from the constant 1 down to a single word, equals 1 only if every
  test does; hence every entry of the array is a real number.
-/
import Mathlib
import Idealize.ShloMosaic.PureOps.Ideal
import Idealize.ShloMosaic.PureOps.Ideal.Laws
import Idealize.ShloMosaic.Lib.ReduceAll
import Idealize.ShloMosaic.Lib.ValueIdx
import proofs.«105483_g71073118815011_cont_9to1c4b_851_4_alg».proof.Proof.LibRealSum

noncomputable section

open Idealize.ShloMosaic
open Cert.LibRealSum

namespace Cert.Lib.FiniteAll

/-- The pattern of the positive infinity denotes +∞. -/
theorem ofBits_inf_f32 : Ideal.ofBits .f32 0x7F800000#32 = ⊤ := by simp [Ideal.ofBits, Ideal.ieee]

/-- An extended real whose absolute value is below +∞ is a real number. -/
theorem isReal_of_abs_lt_top (x : EReal) (h : max x (-x) < ⊤) : IsReal x := by
  induction x using EReal.rec with
  | bot => simp at h
  | coe a => exact ⟨a, rfl⟩
  | top => simp at h

/-- The same, with the test as the comparison word it is computed as. -/
theorem isReal_of_cmp (x : EReal)
    (h : Ideal.cmp .olt (max x (-x)) (Ideal.ofBits .f32 0x7F800000#32) = 1#1) : IsReal x := by
  rw [ofBits_inf_f32] at h
  refine isReal_of_abs_lt_top x ?_
  by_contra hn
  simp [Ideal.cmp, hn] at h

/-- The shape with no axes has one index. -/
instance subsingleton_scalarIdx : Subsingleton (⟨0, ![]⟩ : Shape).Idx := ⟨fun a b => funext fun d => d.elim0⟩

/-- If the conjunction over the whole array of the tests |x i| < +∞ is 1, every entry is a real number. -/
theorem all_real {s : Shape} {axes : List (Fin s.rank)} (x : FVec Ideal s .f32) (init : IVec ⟨0, ![]⟩ 1)
    (hr : s.ReducesTo axes ⟨0, ![]⟩) (hu : 0 < (⟨0, ![]⟩ : Shape).numel)
    (hb : (⟨0, ![]⟩ : Shape).BroadcastsInDim s (![] : Fin 0 → Fin s.rank))
    (e : Host.reduce IntOp.andi
          (cmpf .olt (Host.absf x) (broadcastInDim s ![] hb (constant (F := Ideal) ⟨0, ![]⟩ .f32 0x7F800000#32)))
          init hr hu ValueIdx.ix0 = 1#1)
    (i : s.Idx) : IsReal (x i) := by
  have h := Host.reduce_andi_all _ init hr hu ValueIdx.ix0 e i
  exact isReal_of_cmp (x i) h

end Cert.Lib.FiniteAll

end
-- ==== Proof.FiniteInputs.lean ====
/-
  Finite inputs are arrays of real numbers.

  The precondition is the conjunction, over the six argument arrays, of "every entry x has |x| < +∞", each conjunct
  computed as a reduction by "and" over the whole array and the six joined by "and" from the left. If the result is
  the word 1 then each of the six reductions is 1, hence every entry of every array passes its test and is a real
  number.
-/
import Idealize.ShloMosaic.Lib.Affine
import proofs.«105483_g71073118815011_cont_9to1c4b_851_4_alg».proof.Pre_finite_inputs
import proofs.«105483_g71073118815011_cont_9to1c4b_851_4_alg».proof.Proof.LibFiniteAll

noncomputable section

namespace Cert.Highway

open Idealize.ShloMosaic Cert.LibRealSum Cert.Pre_finite_inputs

variable [Cert.Pre_finite_inputs.Facts]

/-- From the precondition's value 1 to: every entry of each of the six arrays is a real number. -/
theorem real_of_finite_inputs (x0 : FVec Ideal S10000x128 .f32) (x1 : FVec Ideal S10000x10000 .f32)
    (x2 : FVec Ideal S128x128 .f32) (x3 : FVec Ideal S128 .f32) (x4 : FVec Ideal S128x128 .f32) (x5 : FVec Ideal S128 .f32)
    (h : fn (F := Ideal) x0 x1 x2 x3 x4 x5 = fun _ => 1#1) :
    (∀ i, IsReal (x0 i)) ∧ (∀ i, IsReal (x1 i)) ∧ (∀ i, IsReal (x2 i)) ∧ (∀ i, IsReal (x3 i))
      ∧ (∀ i, IsReal (x4 i)) ∧ (∀ i, IsReal (x5 i)) := by
  have h0 := congrFun h ValueIdx.ix0
  dsimp only [fn, fn_part1, andi] at h0
  obtain ⟨h1, e5⟩ := IntOp.andi_eq_one.1 h0
  obtain ⟨h2, e4⟩ := IntOp.andi_eq_one.1 h1
  obtain ⟨h3, e3⟩ := IntOp.andi_eq_one.1 h2
  obtain ⟨h4, e2⟩ := IntOp.andi_eq_one.1 h3
  obtain ⟨e0, e1⟩ := IntOp.andi_eq_one.1 h4
  exact ⟨Cert.Lib.FiniteAll.all_real x0 _ _ _ _ e0, Cert.Lib.FiniteAll.all_real x1 _ _ _ _ e1,
    Cert.Lib.FiniteAll.all_real x2 _ _ _ _ e2, Cert.Lib.FiniteAll.all_real x3 _ _ _ _ e3,
    Cert.Lib.FiniteAll.all_real x4 _ _ _ _ e4, Cert.Lib.FiniteAll.all_real x5 _ _ _ _ e5⟩

end Cert.Highway

end
-- ==== Proof.lean ====
/-
  A highway graph-convolution layer: the kernel against its reference, over the extended reals.

  With features x, adjacency adj, weights W and bias b, gate matrix kg and gate bias bg, the layer's output at (r, j) is
        g · max(s, 0) + (1 − g) · x[r, j],      g = logistic(Σ_e x[r, e] · kg[e, j] + bg[j]).
  The reference forms the support as s = Σ_n adj[r, n] · (Σ_e x[n, e] · W[j, e] + b[j]) and writes the gate out as
  1 / (1 + exp(−z)), which is the logistic function of z. The kernel, working on 400 rows at each of 25 grid points,
  forms s = Σ_e (Σ_n adj[r, n] · x[n, e]) · W[j, e] + (Σ_n adj[r, n]) · b[j]; its changes of float format are the
  identity on the extended reals. The two supports agree by distributivity and an exchange of finite sums, valid
  because the precondition makes every entry of every input a real number. The idealization changes no operation
  of the kernel, so the conjunct relating the two is trivial.
-/
import proofs.«105483_g71073118815011_cont_9to1c4b_851_4_alg».proof.Defs
import proofs.«105483_g71073118815011_cont_9to1c4b_851_4_alg».proof.Proof.Gen.Kernel
import proofs.«105483_g71073118815011_cont_9to1c4b_851_4_alg».proof.Proof.Gen.Kernel.Skeleton
import proofs.«105483_g71073118815011_cont_9to1c4b_851_4_alg».proof.Proof.Gen.Kernel.Launch
import proofs.«105483_g71073118815011_cont_9to1c4b_851_4_alg».proof.Proof.Gen.Kernel.Points
import proofs.«105483_g71073118815011_cont_9to1c4b_851_4_alg».proof.Proof.Gen.Kernel.Frame
import proofs.«105483_g71073118815011_cont_9to1c4b_851_4_alg».proof.Proof.Gen.KernelIdeal
import proofs.«105483_g71073118815011_cont_9to1c4b_851_4_alg».proof.Proof.Gen.KernelIdeal.Skeleton
import proofs.«105483_g71073118815011_cont_9to1c4b_851_4_alg».proof.Proof.Gen.KernelIdeal.Launch
import proofs.«105483_g71073118815011_cont_9to1c4b_851_4_alg».proof.Proof.Gen.KernelIdeal.Points
import proofs.«105483_g71073118815011_cont_9to1c4b_851_4_alg».proof.Proof.Gen.KernelIdeal.Frame
import proofs.«105483_g71073118815011_cont_9to1c4b_851_4_alg».proof.Proof.Gen.ReferenceIdeal
import proofs.«105483_g71073118815011_cont_9to1c4b_851_4_alg».proof.Proof.Gen.Pre_finite_inputs
import proofs.«105483_g71073118815011_cont_9to1c4b_851_4_alg».proof.Proof.Gen.KernelIdeal.Value
import proofs.«105483_g71073118815011_cont_9to1c4b_851_4_alg».proof.Proof.Gen.ReferenceIdeal.Run
import proofs.«105483_g71073118815011_cont_9to1c4b_851_4_alg».proof.Proof.Gen.ReferenceIdeal.Read
import proofs.«105483_g71073118815011_cont_9to1c4b_851_4_alg».proof.Proof.HighwayLayer
import proofs.«105483_g71073118815011_cont_9to1c4b_851_4_alg».proof.Proof.ReferenceLayer
import proofs.«105483_g71073118815011_cont_9to1c4b_851_4_alg».proof.Proof.KernelLayer
import proofs.«105483_g71073118815011_cont_9to1c4b_851_4_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changes no operation of the kernel: nothing to relate. -/
theorem preserves : Cert.preserves_Kernel_KernelIdeal := trivial

/-- From memories agreeing on finite arguments both programs end with the layer's output: the kernel with the
    aggregated features transformed, the reference with the transformed features aggregated, one array on real
    data. -/
theorem algebraic : Cert.algebraic_KernelIdeal_ReferenceIdeal := by
  intro m ρ m' ρ' hpre hagree
  refine ⟨fun c => Cert.Highway.Kernel.result m c, Cert.Highway.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hadj, hW, hb, -, -⟩ := Cert.Highway.real_of_finite_inputs _ _ _ _ _ _ (hpre c)
  rw [Cert.ReferenceIdeal.Read.val_main_v21_eq, Cert.Highway.Reference.result_eq, (hagree c).1, (hagree c).2.1,
    (hagree c).2.2.1, (hagree c).2.2.2.1, (hagree c).2.2.2.2.1, (hagree c).2.2.2.2.2]
  exact (Cert.Highway.layer_eq _ _ _ _ _ _ hx hadj hW hb).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
